-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64x32 .f32) (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x64 .f32) (main_arg1 : FVec F S64x64 .f32) (main_arg2 : FVec F S64x64 .f32) (main_arg3 : FVec F S64 .f32) (main_arg4 : FVec F S64x32 .f32) (main_arg5 : FVec F S64x32 .f32) (main_arg6 : FVec F S32 .f32) (main_arg7 : IVec S800000 32) (main_arg8 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S1x32 : Shape := ⟨2, ![1, 32]⟩
abbrev S50000x32 : Shape := ⟨2, ![50000, 32]⟩
abbrev S2000x64 : Shape := ⟨2, ![2000, 64]⟩
abbrev S2000x1 : Shape := ⟨2, ![2000, 1]⟩
abbrev S2000x32 : Shape := ⟨2, ![2000, 32]⟩
abbrev S800000x32 : Shape := ⟨2, ![800000, 32]⟩

abbrev nBuf : Space → Nat
  | .hbm => 54
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S64x32, .f32⟩
  | .hbm, ⟨6, _⟩ => ⟨S32, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S50000x1, .f32⟩
  | .hbm, ⟨16, _⟩ => ⟨S50000x64, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .bf16⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S64x64, .bf16⟩
  | .hbm, ⟨32, _⟩ => ⟨S64x64, .bf16⟩
  | .hbm, ⟨33, _⟩ => ⟨S64x32, .bf16⟩
  | .hbm, ⟨34, _⟩ => ⟨S64x32, .bf16⟩
  | .hbm, ⟨35, _⟩ => ⟨S1x64, .f32⟩
  | .hbm, ⟨36, _⟩ => ⟨S1x32, .f32⟩
  | .hbm, ⟨37, _⟩ => ⟨S50000x64, .f32⟩
  | .hbm, ⟨38, _⟩ => ⟨S50000x32, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x32, .bf16⟩
  | .hbm, ⟨48, _⟩ => ⟨S800000x32, .f32⟩
  | .hbm, ⟨49, _⟩ => ⟨S_, .f32⟩
  | .hbm, ⟨50, _⟩ => ⟨S50000x32, .f32⟩
  | .hbm, ⟨51, _⟩ => ⟨S800000x1, .i32⟩
  | .hbm, ⟨52, _⟩ => ⟨S50000x32, .f32⟩
  | .hbm, ⟨53, _⟩ => ⟨S50000x32, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x64, .bf16⟩
  | .local _ .vmem, ⟨7, _⟩ => ⟨S64x64, .bf16⟩
  | .local _ .vmem, ⟨8, _⟩ => ⟨S1x64, .f32⟩
  | .local _ .vmem, ⟨9, _⟩ => ⟨S64x32, .bf16⟩
  | .local _ .vmem, ⟨10, _⟩ => ⟨S2000x64, .f32⟩
  | .local _ .vmem, ⟨11, _⟩ => ⟨S2000x64, .f32⟩
  | .local _ .vmem, ⟨12, _⟩ => ⟨S2000x32, .bf16⟩
  | .local _ .vmem, ⟨13, _⟩ => ⟨S2000x32, .bf16⟩
  | .local _ .vmem, ⟨14, _⟩ => ⟨S2000x64, .f32⟩
  | .local _ .vmem, ⟨15, _⟩ => ⟨S2000x64, .f32⟩
  | .local _ .vmem, ⟨16, _⟩ => ⟨S2000x32, .f32⟩
  | .local _ .vmem, ⟨17, _⟩ => ⟨S2000x32, .f32⟩
  | .local _ .vmem, ⟨18, _⟩ => ⟨S2000x1, .f32⟩
  | .local _ .vmem, ⟨19, _⟩ => ⟨S2000x1, .f32⟩
  | .local _ .vmem, ⟨20, _⟩ => ⟨S64x32, .bf16⟩
  | .local _ .vmem, ⟨21, _⟩ => ⟨S1x32, .f32⟩
  | .local _ .vmem, ⟨22, _⟩ => ⟨S2000x32, .f32⟩
  | .local _ .vmem, ⟨23, _⟩ => ⟨S2000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x64 : S_.BroadcastsInDim S50000x64 (![] : Fin 0 → Fin S50000x64.rank)
  shapeCasts_S64_S1x64 : S64.ShapeCasts S1x64
  shapeCasts_S32_S1x32 : S32.ShapeCasts S1x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S2000x32_S2000x32_0_0 : ∀ a, (![0, 0] : Fin 2 → Nat) a + S2000x32.size a ≤ S2000x32.size a
  h_S2000x32 : 0 < S2000x32.numel
  packedbf16_S2000x32_S2000x32_0_0 : (Rect.unit (s := S2000x32) ![0, 0] S2000x32.size inb_S2000x32_S2000x32_0_0).PackedRows (EltTy.packing .bf16)
  bcast_S_S50000x32 : S_.BroadcastsInDim S50000x32 (![] : Fin 0 → Fin S50000x32.rank)
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .bf16 = 32 ∨ (Rect.block (s := S64x32) S64x32.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .f32 = 32 ∨ (Rect.block (s := S50000x64) S2000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x32.size a ≤ S50000x32.size a
  hwx0_8 : ∀ i : grid0.Coords, EltTy.bits .bf16 = 32 ∨ (Rect.block (s := S50000x32) S2000x32.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S50000x32.size a
  hwx1_1 : ∀ i : grid1.Coords, EltTy.bits .f32 = 32 ∨ (Rect.block (s := S50000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .bf16 = 32 ∨ (Rect.block (s := S64x32) S64x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S50000x32.size a
  hwx1_5 : ∀ i : grid1.Coords, EltTy.bits .f32 = 32 ∨ (Rect.block (s := S50000x32) S2000x32.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S2000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S2000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v23_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x32 : Shape := ⟨2, ![50000, 32]⟩
abbrev S1x32 : Shape := ⟨2, ![1, 32]⟩

abbrev nBuf : Space → Nat
  | .hbm => 74
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S64x32, .f32⟩
  | .hbm, ⟨6, _⟩ => ⟨S32, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x64, .f32⟩
  | .hbm, ⟨67, _⟩ => ⟨S50000x64, .f32⟩
  | .hbm, ⟨68, _⟩ => ⟨S50000x32, .f32⟩
  | .hbm, ⟨69, _⟩ => ⟨S50000x32, .f32⟩
  | .hbm, ⟨70, _⟩ => ⟨S50000x32, .f32⟩
  | .hbm, ⟨71, _⟩ => ⟨S1x32, .f32⟩
  | .hbm, ⟨72, _⟩ => ⟨S50000x32, .f32⟩
  | .hbm, ⟨73, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.LibRealMean.lean ====
/-
  The algebra of the mean-aggregation layer on the extended reals.

  An extended real that is a real number is called real here. Sums, products, maxima of reals are real, and so is a
  quotient by a nonzero real. On reals the neighbour term of the second layer can be computed in two orders:

    project, then sum over the incoming edges, then divide by the degree:
        (0 + ∑ e, ∑ k, h e k · w k) / d
    sum over the incoming edges, divide by the degree, then project:
        ∑ k, ((0 + ∑ e, h e k) / d) · w k

  Both are (∑ e, ∑ k, h e k · w k) / d by exchanging the two finite sums and moving the factors w k and 1 / d through
  them; on the extended reals this needs every h e k and w k real and d a nonzero real, since a product does not
  distribute over a sum that meets an infinity.
-/
import Idealize.ShloMosaic.PureOps.Ideal

noncomputable section

open scoped BigOperators

namespace Cert.RealMean

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The larger of two reals, taken in the extended reals, is the larger real. -/
theorem coe_max (a b : ℝ) : max (a : EReal) (b : EReal) = ((max a b : ℝ) : EReal) :=
  (EReal.coe_strictMono.monotone.map_max).symm

theorem IsReal.max {x y : EReal} (hx : IsReal x) (hy : IsReal y) : IsReal (max x y) := by
  obtain ⟨a, rfl⟩ := hx; obtain ⟨b, rfl⟩ := hy
  exact ⟨_, coe_max a b⟩

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real divided by a nonzero real is real. -/
theorem IsReal.div {x : EReal} (hx : IsReal x) {d : ℝ} (hd : d ≠ 0) : IsReal (Ideal.div x (d : EReal)) := by
  rw [Ideal.div_coe hd]
  exact hx.mul (isReal_coe _)

/-- A count: zero plus a finite sum of ones is a real that is at least zero, so its maximum with one is a real that
    is at least one, and in particular not zero. -/
theorem count_max_one {ι : Type} (s : Finset ι) :
    ∃ d : ℝ, d ≠ 0 ∧ Max.max (0 + ∑ _e ∈ s, (1 : EReal)) 1 = (d : EReal) := by
  refine ⟨Max.max (s.card : ℝ) 1, ?_, ?_⟩
  · have : (1 : ℝ) ≤ Max.max (s.card : ℝ) 1 := le_max_right _ _
    intro h; rw [h] at this; norm_num at this
  · have hs : (∑ _e ∈ s, (1 : EReal)) = ((s.card : ℝ) : EReal) := by
      rw [← EReal.coe_one, ← coe_sum]; simp
    rw [zero_add, hs, ← EReal.coe_one]
    exact coe_max _ _

/-- THE NEIGHBOUR TERM IN TWO ORDERS: projecting the rows before summing them over the edges and dividing by the
    degree is summing, dividing, and projecting afterwards. -/
theorem project_commutes_with_mean {ε κ : Type} [Fintype κ] (s : Finset ε) (h : ε → κ → EReal) (w : κ → EReal) (d : ℝ)
    (hd : d ≠ 0) (hh : ∀ e k, IsReal (h e k)) (hw : ∀ k, IsReal (w k)) :
    Ideal.div (0 + ∑ e ∈ s, ∑ k, h e k * w k) (d : EReal) = ∑ k, Ideal.div (0 + ∑ e ∈ s, h e k) (d : EReal) * w k := by
  choose hr hhr using hh
  choose wr hwr using hw
  obtain rfl : h = fun e k => ((hr e k : ℝ) : EReal) := funext fun e => funext fun k => hhr e k
  obtain rfl : w = fun k => ((wr k : ℝ) : EReal) := funext hwr
  simp only [zero_add, Ideal.div_coe hd, ← EReal.coe_mul, ← coe_sum]
  refine congrArg _ ?_
  rw [Finset.sum_comm, Finset.sum_mul]
  refine Finset.sum_congr rfl fun k _ => ?_
  rw [← Finset.sum_mul]
  ring

end Cert.RealMean

end
-- ==== Proof.Spec.lean ====
/-
  The two-layer mean-aggregation network, index by index, on the extended reals.

  Nodes are rows 0 … 49999, edges 0 … 799999. Edge e reads the row `srcRow src e` (the source word, a negative word
  counted from the end, read signed and clamped into the table) and is summed into the node whose number the
  destination word, read signed, is; an edge whose destination is no node is dropped. With

      degree v       = 0 + ∑ over the edges e into v of 1
      edgeSum z v f  = 0 + ∑ over the edges e into v of z (srcRow e, f)
      hidden v j     = max (∑ k, x (v,k) · ws1 (k,j) + ∑ k, (edgeSum x v k / max (degree v) 1) · wn1 (k,j) + b1 j) 0

  the second layer's neighbour term is written in two orders. Projecting first (`outK`):

      out v c = ∑ k, hidden v k · ws2 (k,c) + edgeSum (hidden · wn2) v c / max (degree v) 1 + b2 c

  and averaging first (`outR`):

      out v c = ∑ k, hidden v k · ws2 (k,c) + ∑ k, (edgeSum hidden v k / max (degree v) 1) · wn2 (k,c) + b2 c

  They agree when every float input is a real number: then every hidden entry is real, the degree's maximum with
  one is a real that is not zero, and the law of LibRealMean applies.
-/
import Idealize.ShloMosaic.Lib.ValueIdx
import Idealize.ShloMosaic.PureOps.Ideal
import Idealize.ShloMosaic.PureOps.Ideal.Laws
import proofs.«127053_j20426864459786_2_alg».proof.Proof.LibRowGather
import proofs.«127053_j20426864459786_2_alg».proof.Proof.LibGcnLaws
import proofs.«127053_j20426864459786_2_alg».proof.Proof.LibRealMean

noncomputable section

open scoped BigOperators

namespace Cert.Sage

open Idealize.ShloMosaic Idealize.ShloMosaic.ValueIdx Idealize.ShloMosaic.RowGather Cert.RealMean

/-- A matrix, a vector and a vector of 32-bit words over literal extents. -/
abbrev Mat (a b : ℕ) : Type := (⟨2, ![a, b]⟩ : Shape).Idx → EReal
abbrev Row (a : ℕ) : Type := (⟨1, ![a]⟩ : Shape).Idx → EReal
abbrev Words (a : ℕ) : Type := (⟨1, ![a]⟩ : Shape).Idx → BitVec 32

/-- The two float words the programs splat, read as extended reals: zero and one. -/
abbrev zeroW : EReal := Ideal.ofBits .f32 0x00000000#32
abbrev oneW : EReal := Ideal.ofBits .f32 0x3F800000#32

theorem zeroW_eq : zeroW = 0 := Ideal.ofBits_zero_f32
theorem oneW_eq : oneW = 1 := GcnLaws.ofBits_one_f32

/-- A matrix from a function of the two coordinates. -/
def ofFn {a b : ℕ} (G : Fin a → Fin b → EReal) : Mat a b := fun i => G (i 0) (i 1)

theorem ofFn_apply {a b : ℕ} (G : Fin a → Fin b → EReal) (p : Fin a) (q : Fin b) : ofFn G (ix2 p q) = G p q := rfl

/-- A source word with a negative word counted from the end of the table. -/
def srcWord (s : BitVec 32) : BitVec 32 := Scalar.select (IntOp.cmpi .slt s 0#32) (IntOp.addi s 50000#32) s

/-- The row an edge reads. -/
def srcRow (src : Words 800000) (e : Fin 800000) : Fin 50000 := rowOf (by decide) (srcWord (src (ix1 e)))

/-- The edges into node `v`. -/
def into (dst : Words 800000) (v : Fin 50000) : Finset (Fin 800000) :=
  Finset.univ.filter fun e => (dst (ix1 e)).toInt = (v.val : Int)

/-- The number of edges into `v`, as the sum from zero of a one per edge. -/
def degree (dst : Words 800000) (v : Fin 50000) : EReal := zeroW + ∑ _e ∈ into dst v, oneW

/-- The sum, over the edges into `v`, of the rows of `z` they read, at column `f`. -/
def edgeSum {D : ℕ} (src dst : Words 800000) (z : Mat 50000 D) (v : Fin 50000) (f : Fin D) : EReal :=
  zeroW + ∑ e ∈ into dst v, z (ix2 (srcRow src e) f)

/-- One row of the first layer: from the node's own row `xr`, its summed neighbour rows `ar` and its degree `d`. -/
def layer1Row (xr ar : Fin 64 → EReal) (d : EReal) (ws wn : Mat 64 64) (b : Fin 64 → EReal) (j : Fin 64) : EReal :=
  max (((∑ k, xr k * ws (ix2 k j)) + ∑ k, Ideal.div (ar k) (max d oneW) * wn (ix2 k j)) + b j) zeroW

/-- The hidden layer. -/
def hidden (x : Mat 50000 64) (ws wn : Mat 64 64) (b : Row 64) (src dst : Words 800000) (v : Fin 50000) (j : Fin 64) : EReal :=
  layer1Row (fun k => x (ix2 v k)) (fun k => edgeSum src dst x v k) (degree dst v) ws wn (fun j => b (ix1 j)) j

/-- A row projected by a 64 × 32 matrix. -/
def project (hr : Fin 64 → EReal) (w : Mat 64 32) (c : Fin 32) : EReal := ∑ k, hr k * w (ix2 k c)

/-- One row of the second layer when the neighbour rows were projected before they were summed: `a` is the summed
    projected entry. -/
def layer2RowK (hr : Fin 64 → EReal) (a d : EReal) (ws : Mat 64 32) (bc : EReal) (c : Fin 32) : EReal :=
  (project hr ws c + Ideal.div a (max d oneW)) + bc

section Outputs

variable (x : Mat 50000 64) (ws1 wn1 : Mat 64 64) (b1 : Row 64) (ws2 wn2 : Mat 64 32) (b2 : Row 32) (src dst : Words 800000)

/-- The output, neighbour rows projected first. -/
def outK (v : Fin 50000) (c : Fin 32) : EReal :=
  layer2RowK (fun k => hidden x ws1 wn1 b1 src dst v k)
    (edgeSum src dst (ofFn fun u c => project (fun k => hidden x ws1 wn1 b1 src dst u k) wn2 c) v c)
    (degree dst v) ws2 (b2 (ix1 c)) c

/-- The output, neighbour rows averaged first. -/
def outR (v : Fin 50000) (c : Fin 32) : EReal :=
  (project (fun k => hidden x ws1 wn1 b1 src dst v k) ws2 c
    + ∑ k, Ideal.div (edgeSum src dst (ofFn (hidden x ws1 wn1 b1 src dst)) v k) (max (degree dst v) oneW) * wn2 (ix2 k c))
  + b2 (ix1 c)

variable {x ws1 wn1 b1 ws2 wn2 b2}

/-- The degree's maximum with one is a real that is not zero. -/
theorem denom_real (v : Fin 50000) : ∃ d : ℝ, d ≠ 0 ∧ max (degree dst v) oneW = (d : EReal) := by
  unfold degree
  rw [zeroW_eq, oneW_eq]
  exact count_max_one _

/-- An edge sum of a real table is real. -/
theorem edgeSum_real {D : ℕ} (z : Mat 50000 D) (hz : ∀ i, IsReal (z i)) (v : Fin 50000) (f : Fin D) :
    IsReal (edgeSum src dst z v f) := by
  unfold edgeSum
  rw [zeroW_eq]
  exact isReal_zero.add (IsReal.sum _ _ fun e _ => hz _)

/-- With real inputs every hidden entry is real. -/
theorem hidden_real (hx : ∀ i, IsReal (x i)) (hws : ∀ i, IsReal (ws1 i)) (hwn : ∀ i, IsReal (wn1 i)) (hb : ∀ i, IsReal (b1 i))
    (v : Fin 50000) (j : Fin 64) : IsReal (hidden x ws1 wn1 b1 src dst v j) := by
  unfold hidden layer1Row
  obtain ⟨d, hd, he⟩ := denom_real dst v
  rw [he, zeroW_eq]
  refine IsReal.max (((IsReal.sum _ _ fun k _ => (hx _).mul (hws _)).add
    (IsReal.sum _ _ fun k _ => ((edgeSum_real src dst x hx v k).div hd).mul (hwn _))).add (hb _)) isReal_zero

/-- THE TWO ORDERS AGREE on real inputs. -/
theorem outK_eq_outR (hx : ∀ i, IsReal (x i)) (hws : ∀ i, IsReal (ws1 i)) (hwn : ∀ i, IsReal (wn1 i)) (hb : ∀ i, IsReal (b1 i))
    (hwn2 : ∀ i, IsReal (wn2 i)) (v : Fin 50000) (c : Fin 32) :
    outK x ws1 wn1 b1 ws2 wn2 b2 src dst v c = outR x ws1 wn1 b1 ws2 wn2 b2 src dst v c := by
  unfold outK outR layer2RowK
  obtain ⟨d, hd, he⟩ := denom_real dst v
  rw [he]
  refine congrArg (· + b2 (ix1 c)) (congrArg (project _ ws2 c + ·) ?_)
  unfold edgeSum
  rw [zeroW_eq]
  simp only [ofFn_apply, project]
  exact project_commutes_with_mean (into dst v) (fun e k => hidden x ws1 wn1 b1 src dst (srcRow src e) k)
    (fun k => wn2 (ix2 k c)) d hd (fun e k => hidden_real src dst hx hws hwn hb _ k) (fun k => hwn2 _)

end Outputs

end Cert.Sage

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibRowTable.lean ====
/-
  Three small readings at an index, used where a block of rows is compared with a table of representatives.

  * `broadcastTo_1bc_abc_apply`: a `[1, b, c]` array spread over `a` leading copies reads, at `(i, j, k)`, the operand at
    `(0, j, k)`.
  * `biasRow_apply`: a `[1, b]` row, cast to its own shape and spread over `a` rows, reads at `(p, j)` the row at `j`.
  * `rowMin_apply`: at the ideal values the minimum of an `[a, b]` matrix along its rows is, at `i`, the fold of `min`
    from the accumulator's value over `k` of the entries `(i, k)`.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowTable

open Idealize.ShloMosaic Idealize.ShloMosaic.ValueIdx

variable {α : Type}

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b]` row, cast to its own shape and spread over `a` rows, reads at `(p, j)` the row at `j`. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix2 (0 : Fin 1) j) := by
  rw [broadcastTo_1b_ab_apply, shapeCast_self]

/-- At the ideal values the minimum of an `[a, b]` matrix along its rows is, at `i`, the fold of `min` from the
    accumulator's value over `k` of the entries `(i, k)`. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  refine congrArg (fun f => (Finset.univ : Finset (Fin b)).fold min (Ideal.ofBits φ acc) f) (funext fun k => ?_)
  refine congrArg src (funext fun ax => Fin.ext ?_)
  match ax with
  | ⟨0, _⟩ => rfl
  | ⟨1, _⟩ => rfl

end Cert.LibRowTable

end
-- ==== Proof.KernelBlocks.lean ====
/-
  What the two kernel bodies compute on one block of 2000 rows, index by index, on the extended reals.

  The first body reads a block of degrees d (a column), of summed neighbour rows a and of feature rows x, the two
  64 × 64 weight matrices and the bias row, and stores, at row p and column j, Spec's `layer1Row` of row p: the
  matrix products into zero accumulators are sums over the shared coordinate, the changes of float format are the
  identity, the degree column and the bias row are spread over the block. Its second store is the first one's rows
  projected by the 64 × 32 matrix. The second body stores Spec's `layer2RowK` of row p.
-/
import proofs.«127053_j20426864459786_2_alg».proof.Proof.Gen.KernelIdeal.Skeleton
import proofs.«127053_j20426864459786_2_alg».proof.Proof.Spec
import proofs.«127053_j20426864459786_2_alg».proof.Proof.LibPlainDot
import proofs.«127053_j20426864459786_2_alg».proof.Proof.LibKeepdims
import proofs.«127053_j20426864459786_2_alg».proof.Proof.LibRowTable
import Idealize.ShloMosaic.Lib.Pipeline.Value
import Idealize.ShloMosaic.Lib.ValueIdx

noncomputable section

open scoped BigOperators

namespace Cert.KernelIdeal.Blocks

open Cert.KernelIdeal Cert.KernelIdeal.Gen Cert.Sage
open Idealize.ShloMosaic Idealize.ShloMosaic.ValueIdx

/-- The first body's first store at (p, j). -/
theorem pay1_apply (d : Vec Ideal S2000x1 .f32) (a x : Vec Ideal S2000x64 .f32) (ws wn : Vec Ideal S64x64 .bf16)
    (b : Vec Ideal S1x64 .f32) (p : Fin 2000) (j : Fin 64) :
    k0_pay1 (F := Ideal) d a x ws wn b (ix2 p j)
      = layer1Row (fun k => x (ix2 p k)) (fun k => a (ix2 p k)) (d (ix2 p (0 : Fin 1))) ws wn
          (fun j => b (ix2 (0 : Fin 1) j)) j := by
  unfold k0_pay1 layer1Row
  dsimp only [matmul]
  rw [maximumf_apply, broadcast_apply, addf_apply, addf_apply, Cert.LibRowTable.biasRow_apply,
    show dot_S2000x64_S64x64_S2000x64_1_0_0_1_n_n = DotDims.plain 2000 64 64 from rfl,
    PlainDot.matmul_zero_apply, PlainDot.matmul_zero_apply]
  simp only [truncf_apply, divf_apply, Cert.LibKeepdims.broadcastTo_a1_ab_apply, maximumf_apply, broadcast_apply,
    shapeCast_self]
  rfl

/-- The first body's second store at (p, c): the first store's row p projected. -/
theorem pay2_apply (d : Vec Ideal S2000x1 .f32) (a x : Vec Ideal S2000x64 .f32) (ws wn : Vec Ideal S64x64 .bf16)
    (b : Vec Ideal S1x64 .f32) (w2 : Vec Ideal S64x32 .bf16) (p : Fin 2000) (c : Fin 32) :
    k0_pay2 (F := Ideal) d a x ws wn b w2 (ix2 p c)
      = project (fun k => k0_pay1 (F := Ideal) d a x ws wn b (ix2 p k)) w2 c := by
  unfold k0_pay2 project
  dsimp only [matmul]
  rw [truncf_apply, show dot_S2000x64_S64x32_S2000x32_1_0_0_1_n_n = DotDims.plain 2000 64 32 from rfl,
    PlainDot.matmul_zero_apply]
  simp only [truncf_apply, shapeCast_self]

/-- The second body's store at (p, c). -/
theorem pay3_apply (d : Vec Ideal S2000x1 .f32) (a : Vec Ideal S2000x32 .f32) (h : Vec Ideal S2000x64 .f32)
    (ws : Vec Ideal S64x32 .bf16) (b : Vec Ideal S1x32 .f32) (p : Fin 2000) (c : Fin 32) :
    k1_pay1 (F := Ideal) d a h ws b (ix2 p c)
      = layer2RowK (fun k => h (ix2 p k)) (a (ix2 p c)) (d (ix2 p (0 : Fin 1))) ws (b (ix2 (0 : Fin 1) c)) c := by
  unfold k1_pay1 layer2RowK project
  dsimp only [matmul]
  rw [addf_apply, addf_apply, Cert.LibRowTable.biasRow_apply,
    show dot_S2000x64_S64x32_S2000x32_1_0_0_1_n_n = DotDims.plain 2000 64 32 from rfl,
    PlainDot.matmul_zero_apply, divf_apply, Cert.LibKeepdims.broadcastTo_a1_ab_apply, maximumf_apply, broadcast_apply]
  simp only [truncf_apply, shapeCast_self]
  rfl

end Cert.KernelIdeal.Blocks

end
-- ==== Proof.Layers.lean ====
/-
  The layers as whole arrays: each output array as one function of the arrays a kernel launch reads.

  `hiddenOf` is the first layer's output from the feature rows, the summed neighbour rows, the degree column, the two
  weight matrices and the bias row; `projOf` projects its rows; `outOf` is the second layer's output from the hidden
  rows, the summed projected rows, the degree column, the weight matrix and the bias row. Row v of each depends on
  row v of the row-indexed inputs only.
-/
import proofs.«127053_j20426864459786_2_alg».proof.Proof.Spec

noncomputable section

open scoped BigOperators

namespace Cert.Sage

open Idealize.ShloMosaic Idealize.ShloMosaic.ValueIdx

def hiddenOf (x a : Mat 50000 64) (d : Mat 50000 1) (ws wn : Mat 64 64) (b : Mat 1 64) : Mat 50000 64 :=
  ofFn fun v j => layer1Row (fun k => x (ix2 v k)) (fun k => a (ix2 v k)) (d (ix2 v (0 : Fin 1))) ws wn
    (fun j => b (ix2 (0 : Fin 1) j)) j

def projOf (h : Mat 50000 64) (w : Mat 64 32) : Mat 50000 32 :=
  ofFn fun v c => project (fun k => h (ix2 v k)) w c

def outOf (h : Mat 50000 64) (a : Mat 50000 32) (d : Mat 50000 1) (ws : Mat 64 32) (b : Mat 1 32) : Mat 50000 32 :=
  ofFn fun v c => layer2RowK (fun k => h (ix2 v k)) (a (ix2 v c)) (d (ix2 v (0 : Fin 1))) ws (b (ix2 (0 : Fin 1) c)) c

theorem hiddenOf_apply (x a : Mat 50000 64) (d : Mat 50000 1) (ws wn : Mat 64 64) (b : Mat 1 64) (v : Fin 50000) (j : Fin 64) :
    hiddenOf x a d ws wn b (ix2 v j) = layer1Row (fun k => x (ix2 v k)) (fun k => a (ix2 v k)) (d (ix2 v (0 : Fin 1))) ws wn
      (fun j => b (ix2 (0 : Fin 1) j)) j := rfl

theorem projOf_apply (h : Mat 50000 64) (w : Mat 64 32) (v : Fin 50000) (c : Fin 32) :
    projOf h w (ix2 v c) = project (fun k => h (ix2 v k)) w c := rfl

theorem outOf_apply (h : Mat 50000 64) (a : Mat 50000 32) (d : Mat 50000 1) (ws : Mat 64 32) (b : Mat 1 32) (v : Fin 50000) (c : Fin 32) :
    outOf h a d ws b (ix2 v c) = layer2RowK (fun k => h (ix2 v k)) (a (ix2 v c)) (d (ix2 v (0 : Fin 1))) ws (b (ix2 (0 : Fin 1) c)) c := rfl

end Cert.Sage

end
-- ==== Proof.KernelArrays.lean ====
/-
  From blocks to arrays: what each kernel launch leaves in its output arrays, as one function of the arrays it reads.

  Every launch walks 25 grid points; at point t the row-indexed windows hold rows 2000·t … 2000·t + 1999 of their
  arrays and the weight and bias windows hold their whole arrays. What point t writes back is therefore block t of
  the whole-array function of Layers, and the 25 blocks tile the 50000 rows, so after the launch the output array is
  that function.
-/
import proofs.«127053_j20426864459786_2_alg».proof.Proof.Gen.KernelIdeal.Frame
import proofs.«127053_j20426864459786_2_alg».proof.Proof.KernelBlocks
import proofs.«127053_j20426864459786_2_alg».proof.Proof.Layers
import Idealize.ShloMosaic.Lib.Pipeline.Value

set_option maxRecDepth 16384

noncomputable section

namespace Cert.KernelIdeal.Arrays

open Cert.KernelIdeal Cert.KernelIdeal.Gen Cert.KernelIdeal.Blocks Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! # The first launch -/

/-- The printed index maps, decided over the grid: a row-indexed window's block index is (t, 0), a weight or bias
    window's is (0, 0). -/
theorem idx0 : ∀ t : Fin cfg0.N, t.val < 25
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- Row p of block t is row 2000·t + p of the array. -/
def rowAt0 (t : Fin cfg0.N) (p : Fin 2000) : Fin 50000 :=
  ⟨t.val * 2000 + p.val, by have := (idx0 t).1; have := p.isLt; omega⟩

theorem read0_0 (c : Dev nD) (t : Fin cfg0.N) (p : Fin 2000) (k : Fin 64) :
    iblk0 V c 0 t (ix2 p k) = V c main_arg0 (ix2 (rowAt0 t p) k) := by
  show V c main_arg0 (((cfg0.win 0).blk t).view.emb (ix2 p k)) = V c main_arg0 (ix2 (rowAt0 t p) k)
  refine congrArg (V c main_arg0) ?_
  have h := idx0 t
  funext a; apply Fin.ext
  match a with
  | ⟨0, _⟩ => show win0_0.index t (0 : Fin 2) * 2000 + 1 * p.val = t.val * 2000 + p.val; omega
  | ⟨1, _⟩ => show win0_0.index t (1 : Fin 2) * 64 + 1 * k.val = k.val; omega

theorem read0_1 (c : Dev nD) (t : Fin cfg0.N) (p : Fin 2000) (k : Fin 64) :
    iblk0 V c 1 t (ix2 p k) = V c main_v16 (ix2 (rowAt0 t p) k) := by
  show V c main_v16 (((cfg0.win 1).blk t).view.emb (ix2 p k)) = V c main_v16 (ix2 (rowAt0 t p) k)
  refine congrArg (V c main_v16) ?_
  have h := idx0 t
  funext a; apply Fin.ext
  match a with
  | ⟨0, _⟩ => show win0_1.index t (0 : Fin 2) * 2000 + 1 * p.val = t.val * 2000 + p.val; omega
  | ⟨1, _⟩ => show win0_1.index t (1 : Fin 2) * 64 + 1 * k.val = k.val; omega

theorem read0_2 (c : Dev nD) (t : Fin cfg0.N) (p : Fin 2000) (k : Fin 1) :
    iblk0 V c 2 t (ix2 p k) = V c main_v4 (ix2 (rowAt0 t p) k) := by
  show V c main_v4 (((cfg0.win 2).blk t).view.emb (ix2 p k)) = V c main_v4 (ix2 (rowAt0 t p) k)
  refine congrArg (V c main_v4) ?_
  have h := idx0 t
  funext a; apply Fin.ext
  match a with
  | ⟨0, _⟩ => show win0_2.index t (0 : Fin 2) * 2000 + 1 * p.val = t.val * 2000 + p.val; omega
  | ⟨1, _⟩ => show win0_2.index t (1 : Fin 2) * 1 + 1 * k.val = k.val; omega

theorem read0_3 (c : Dev nD) (t : Fin cfg0.N) : (iblk0 V c 3 t : S64x64.Idx → EReal) = V c main_v17 := by
  funext y
  show V c main_v17 (((cfg0.win 3).blk t).view.emb y) = V c main_v17 y
  refine congrArg (V c main_v17) ?_
  have h := idx0 t
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem read0_4 (c : Dev nD) (t : Fin cfg0.N) : (iblk0 V c 4 t : S64x64.Idx → EReal) = V c main_v18 := by
  funext y
  show V c main_v18 (((cfg0.win 4).blk t).view.emb y) = V c main_v18 y
  refine congrArg (V c main_v18) ?_
  have h := idx0 t
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem read0_5 (c : Dev nD) (t : Fin cfg0.N) : (iblk0 V c 5 t : S1x64.Idx → EReal) = V c main_v21 := by
  funext y
  show V c main_v21 (((cfg0.win 5).blk t).view.emb y) = V c main_v21 y
  refine congrArg (V c main_v21) ?_
  have h := idx0 t
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem read0_6 (c : Dev nD) (t : Fin cfg0.N) : (iblk0 V c 6 t : S64x32.Idx → EReal) = V c main_v19 := by
  funext y
  show V c main_v19 (((cfg0.win 6).blk t).view.emb y) = V c main_v19 y
  refine congrArg (V c main_v19) ?_
  have h := idx0 t
  funext a; apply Fin.ext
  match a with
  | ⟨0, _⟩ => show win0_6.index t (0 : Fin 2) * 64 + 1 * (y 0).val = (y 0).val; omega
  | ⟨1, _⟩ => show win0_6.index t (1 : Fin 2) * 32 + 1 * (y 1).val = (y 1).val; omega

theorem emb0_7 (t : Fin cfg0.N) (p : Fin 2000) (k : Fin 64) :
    ((cfg0.win 7).blk t).view.emb (ix2 p k) = ix2 (rowAt0 t p) k := by
  have h := idx0 t
  funext a; apply Fin.ext
  match a with
  | ⟨0, _⟩ => show win0_7.index t (0 : Fin 2) * 2000 + 1 * p.val = t.val * 2000 + p.val; omega
  | ⟨1, _⟩ => show win0_7.index t (1 : Fin 2) * 64 + 1 * k.val = k.val; omega

theorem emb0_8 (t : Fin cfg0.N) (p : Fin 2000) (k : Fin 32) :
    ((cfg0.win 8).blk t).view.emb (ix2 p k) = ix2 (rowAt0 t p) k := by
  have h := idx0 t
  funext a; apply Fin.ext
  match a with
  | ⟨0, _⟩ => show win0_8.index t (0 : Fin 2) * 2000 + 1 * p.val = t.val * 2000 + p.val; omega
  | ⟨1, _⟩ => show win0_8.index t (1 : Fin 2) * 32 + 1 * k.val = k.val; omega

/-- The first layer's output array, from the arrays the launch finds. -/
abbrev H1 (c : Dev nD) : Mat 50000 64 :=
  hiddenOf (V c main_arg0) (V c main_v16) (V c main_v4) (V c main_v17) (V c main_v18) (V c main_v21)

/-- Row p of what point t computes is row 2000·t + p of `H1`. -/
theorem block0_7 (c : Dev nD) (t : Fin cfg0.N) (p : Fin 2000) (j : Fin 64) :
    k0_pay1 (F := Ideal) (iblk0 V c 2 t) (iblk0 V c 1 t) (iblk0 V c 0 t) (iblk0 V c 3 t) (iblk0 V c 4 t) (iblk0 V c 5 t) (ix2 p j)
      = H1 V c (ix2 (rowAt0 t p) j) := by
  refine (pay1_apply (iblk0 V c 2 t) (iblk0 V c 1 t) (iblk0 V c 0 t) (iblk0 V c 3 t) (iblk0 V c 4 t) (iblk0 V c 5 t) p j).trans ?_
  unfold H1
  rw [hiddenOf_apply]
  simp only [read0_0, read0_1, read0_2, read0_3, read0_4, read0_5]

/-- WHAT POINT t WRITES BACK to the hidden array is block t of `H1`. -/
theorem flushed0_7 (c : Dev nD) (t : Fin cfg0.N) :
    (dat0 V c).flushed 7 t = ((cfg0.win 7).blk t).view.read (Elt Ideal) (H1 V c) := by
  show (cfg0.win 7).cut (grid0.coords t) ((dat0 V c).after 7 t) = _
  rw [after0_7]
  unfold out0_7
  rw [View.canon_unit_zero hz]
  simp only [View.ld_unit_zero (S := S2000x1) hz, View.ld_unit_zero (S := S2000x64) hz, View.ld_unit_zero (S := S64x64) hz,
    View.ld_unit_zero (S := S1x64) hz]
  funext y
  obtain ⟨p, j, rfl⟩ : ∃ (p : Fin 2000) (j : Fin 64), y = ix2 p j := ⟨y 0, y 1, eq_ix2 y⟩
  show k0_pay1 (F := Ideal) (iblk0 V c 2 t) (iblk0 V c 1 t) (iblk0 V c 0 t) (iblk0 V c 3 t) (iblk0 V c 4 t) (iblk0 V c 5 t) (ix2 p j)
    = H1 V c (((cfg0.win 7).blk t).view.emb (ix2 p j))
  rw [emb0_7 t p j]
  exact block0_7 V c t p j

/-- An index of the array is in point t's block iff each coordinate is in the block's range on its axis. -/
theorem mem_blk0_7 (t : Fin cfg0.N) (i : S50000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v23_0).slice (win0_7.rect t)).set ↔ _
  rw [View.set_slice_whole, Rect.mem_set_unit]
  exact Iff.rfl

/-- Row r is in the block of point r / 2000: the 25 blocks tile the array. -/
theorem tiles0_7 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, ht⟩ : ∃ t : Fin cfg0.N, t.val = (i 0).val / 2000 := ⟨⟨(i 0).val / 2000, by show _ < 25; omega⟩, rfl⟩
  refine ⟨t, flush0_7 t, ?_⟩
  rw [mem_blk0_7]
  have h := idx0 t
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 64 ≤ (i 1).val ∧ (i 1).val < win0_7.index t (1 : Fin 2) * 64 + 64; omega

/-- THE HIDDEN ARRAY after the first launch. -/
theorem arr0_7 (c : Dev nD) : (dat0 V c).arrAt 7 cfg0.N = H1 V c :=
  (dat0 V c).arrAt_eq_of_cover 7 _ (fun t _ => flushed0_7 V c t) tiles0_7

/-- The projected hidden array, from the arrays the launch finds. -/
abbrev P1 (c : Dev nD) : Mat 50000 32 := projOf (H1 V c) (V c main_v19)

/-- WHAT POINT t WRITES BACK to the projected array is block t of `P1`. -/
theorem flushed0_8 (c : Dev nD) (t : Fin cfg0.N) :
    (dat0 V c).flushed 8 t = ((cfg0.win 8).blk t).view.read (Elt Ideal) (P1 V c) := by
  show (cfg0.win 8).cut (grid0.coords t) ((dat0 V c).after 8 t) = _
  rw [after0_8]
  unfold out0_8
  rw [View.canon_unit_zero hz]
  simp only [View.ld_unit_zero (S := S2000x1) hz, View.ld_unit_zero (S := S2000x64) hz, View.ld_unit_zero (S := S64x64) hz,
    View.ld_unit_zero (S := S1x64) hz, View.ld_unit_zero (S := S64x32) hz]
  funext y
  obtain ⟨p, q, rfl⟩ : ∃ (p : Fin 2000) (q : Fin 32), y = ix2 p q := ⟨y 0, y 1, eq_ix2 y⟩
  show k0_pay2 (F := Ideal) (iblk0 V c 2 t) (iblk0 V c 1 t) (iblk0 V c 0 t) (iblk0 V c 3 t) (iblk0 V c 4 t) (iblk0 V c 5 t)
      (iblk0 V c 6 t) (ix2 p q)
    = P1 V c (((cfg0.win 8).blk t).view.emb (ix2 p q))
  rw [emb0_8 t p q]
  refine (pay2_apply (iblk0 V c 2 t) (iblk0 V c 1 t) (iblk0 V c 0 t) (iblk0 V c 3 t) (iblk0 V c 4 t) (iblk0 V c 5 t)
    (iblk0 V c 6 t) p q).trans ?_
  unfold P1
  rw [projOf_apply, read0_6]
  simp only [block0_7]

/-- An index of the array is in point t's block iff each coordinate is in the block's range on its axis. -/
theorem mem_blk0_8 (t : Fin cfg0.N) (i : S50000x32.Idx) :
    i ∈ ((cfg0.win 8).blk t).view.set ↔ ∀ a : Fin 2, win0_8.index t a * S2000x32.size a ≤ (i a).val ∧ (i a).val < win0_8.index t a * S2000x32.size a + S2000x32.size a := by
  show i ∈ ((View.whole main_v23_1).slice (win0_8.rect t)).set ↔ _
  rw [View.set_slice_whole, Rect.mem_set_unit]
  exact Iff.rfl

/-- Row r is in the block of point r / 2000: the 25 blocks tile the array. -/
theorem tiles0_8 (i : S50000x32.Idx) : ∃ t : Fin cfg0.N, (cfg0.win 8).flush t = true ∧ i ∈ ((cfg0.win 8).blk t).view.set := by
  have hi0 : (i 0).val < 50000 := (i 0).isLt
  have hi1 : (i 1).val < 32 := (i 1).isLt
  obtain ⟨t, ht⟩ : ∃ t : Fin cfg0.N, t.val = (i 0).val / 2000 := ⟨⟨(i 0).val / 2000, by show _ < 25; omega⟩, rfl⟩
  refine ⟨t, flush0_8 t, ?_⟩
  rw [mem_blk0_8]
  have h := idx0 t
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 32 ≤ (i 1).val ∧ (i 1).val < win0_8.index t (1 : Fin 2) * 32 + 32; omega

/-- THE PROJECTED ARRAY after the first launch. -/
theorem arr0_8 (c : Dev nD) : (dat0 V c).arrAt 8 cfg0.N = P1 V c :=
  (dat0 V c).arrAt_eq_of_cover 8 _ (fun t _ => flushed0_8 V c t) tiles0_8

/-! # The second launch -/

theorem idx1 : ∀ t : Fin cfg1.N, t.val < 25
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Row p of block t is row 2000·t + p of the array. -/
def rowAt1 (t : Fin cfg1.N) (p : Fin 2000) : Fin 50000 :=
  ⟨t.val * 2000 + p.val, by have := (idx1 t).1; have := p.isLt; omega⟩

theorem read1_0 (c : Dev nD) (t : Fin cfg1.N) (p : Fin 2000) (k : Fin 64) :
    iblk1 V c 0 t (ix2 p k) = V c main_v23_0 (ix2 (rowAt1 t p) k) := by
  show V c main_v23_0 (((cfg1.win 0).blk t).view.emb (ix2 p k)) = V c main_v23_0 (ix2 (rowAt1 t p) k)
  refine congrArg (V c main_v23_0) ?_
  have h := idx1 t
  funext a; apply Fin.ext
  match a with
  | ⟨0, _⟩ => show win1_0.index t (0 : Fin 2) * 2000 + 1 * p.val = t.val * 2000 + p.val; omega
  | ⟨1, _⟩ => show win1_0.index t (1 : Fin 2) * 64 + 1 * k.val = k.val; omega

theorem read1_1 (c : Dev nD) (t : Fin cfg1.N) (p : Fin 2000) (k : Fin 32) :
    iblk1 V c 1 t (ix2 p k) = V c main_v34 (ix2 (rowAt1 t p) k) := by
  show V c main_v34 (((cfg1.win 1).blk t).view.emb (ix2 p k)) = V c main_v34 (ix2 (rowAt1 t p) k)
  refine congrArg (V c main_v34) ?_
  have h := idx1 t
  funext a; apply Fin.ext
  match a with
  | ⟨0, _⟩ => show win1_1.index t (0 : Fin 2) * 2000 + 1 * p.val = t.val * 2000 + p.val; omega
  | ⟨1, _⟩ => show win1_1.index t (1 : Fin 2) * 32 + 1 * k.val = k.val; omega

theorem read1_2 (c : Dev nD) (t : Fin cfg1.N) (p : Fin 2000) (k : Fin 1) :
    iblk1 V c 2 t (ix2 p k) = V c main_v4 (ix2 (rowAt1 t p) k) := by
  show V c main_v4 (((cfg1.win 2).blk t).view.emb (ix2 p k)) = V c main_v4 (ix2 (rowAt1 t p) k)
  refine congrArg (V c main_v4) ?_
  have h := idx1 t
  funext a; apply Fin.ext
  match a with
  | ⟨0, _⟩ => show win1_2.index t (0 : Fin 2) * 2000 + 1 * p.val = t.val * 2000 + p.val; omega
  | ⟨1, _⟩ => show win1_2.index t (1 : Fin 2) * 1 + 1 * k.val = k.val; omega

theorem read1_3 (c : Dev nD) (t : Fin cfg1.N) : (iblk1 V c 3 t : S64x32.Idx → EReal) = V c main_v20 := by
  funext y
  show V c main_v20 (((cfg1.win 3).blk t).view.emb y) = V c main_v20 y
  refine congrArg (V c main_v20) ?_
  have h := idx1 t
  funext a; apply Fin.ext
  match a with
  | ⟨0, _⟩ => show win1_3.index t (0 : Fin 2) * 64 + 1 * (y 0).val = (y 0).val; omega
  | ⟨1, _⟩ => show win1_3.index t (1 : Fin 2) * 32 + 1 * (y 1).val = (y 1).val; omega

theorem read1_4 (c : Dev nD) (t : Fin cfg1.N) : (iblk1 V c 4 t : S1x32.Idx → EReal) = V c main_v22 := by
  funext y
  show V c main_v22 (((cfg1.win 4).blk t).view.emb y) = V c main_v22 y
  refine congrArg (V c main_v22) ?_
  have h := idx1 t
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

theorem emb1_5 (t : Fin cfg1.N) (p : Fin 2000) (k : Fin 32) :
    ((cfg1.win 5).blk t).view.emb (ix2 p k) = ix2 (rowAt1 t p) k := by
  have h := idx1 t
  funext a; apply Fin.ext
  match a with
  | ⟨0, _⟩ => show win1_5.index t (0 : Fin 2) * 2000 + 1 * p.val = t.val * 2000 + p.val; omega
  | ⟨1, _⟩ => show win1_5.index t (1 : Fin 2) * 32 + 1 * k.val = k.val; omega

/-- The output array, from the arrays the second launch finds. -/
abbrev O2 (c : Dev nD) : Mat 50000 32 :=
  outOf (V c main_v23_0) (V c main_v34) (V c main_v4) (V c main_v20) (V c main_v22)

/-- WHAT POINT t WRITES BACK to the output array is block t of `O2`. -/
theorem flushed1_5 (c : Dev nD) (t : Fin cfg1.N) :
    (dat1 V c).flushed 5 t = ((cfg1.win 5).blk t).view.read (Elt Ideal) (O2 V c) := by
  show (cfg1.win 5).cut (grid1.coords t) ((dat1 V c).after 5 t) = _
  rw [after1_5]
  unfold out1_5
  rw [View.canon_unit_zero hz]
  simp only [View.ld_unit_zero (S := S2000x1) hz, View.ld_unit_zero (S := S2000x64) hz, View.ld_unit_zero (S := S2000x32) hz,
    View.ld_unit_zero (S := S1x32) hz, View.ld_unit_zero (S := S64x32) hz]
  funext y
  obtain ⟨p, q, rfl⟩ : ∃ (p : Fin 2000) (q : Fin 32), y = ix2 p q := ⟨y 0, y 1, eq_ix2 y⟩
  show k1_pay1 (F := Ideal) (iblk1 V c 2 t) (iblk1 V c 1 t) (iblk1 V c 0 t) (iblk1 V c 3 t) (iblk1 V c 4 t) (ix2 p q)
    = O2 V c (((cfg1.win 5).blk t).view.emb (ix2 p q))
  rw [emb1_5 t p q]
  refine (pay3_apply (iblk1 V c 2 t) (iblk1 V c 1 t) (iblk1 V c 0 t) (iblk1 V c 3 t) (iblk1 V c 4 t) p q).trans ?_
  unfold O2
  rw [outOf_apply]
  simp only [read1_0, read1_1, read1_2, read1_3, read1_4]

/-- An index of the array is in point t's block iff each coordinate is in the block's range on its axis. -/
theorem mem_blk1_5 (t : Fin cfg1.N) (i : S50000x32.Idx) :
    i ∈ ((cfg1.win 5).blk t).view.set ↔ ∀ a : Fin 2, win1_5.index t a * S2000x32.size a ≤ (i a).val ∧ (i a).val < win1_5.index t a * S2000x32.size a + S2000x32.size a := by
  show i ∈ ((View.whole main_v35).slice (win1_5.rect t)).set ↔ _
  rw [View.set_slice_whole, Rect.mem_set_unit]
  exact Iff.rfl

/-- Row r is in the block of point r / 2000: the 25 blocks tile the array. -/
theorem tiles1_5 (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  obtain ⟨t, ht⟩ : ∃ t : Fin cfg1.N, t.val = (i 0).val / 2000 := ⟨⟨(i 0).val / 2000, by show _ < 25; omega⟩, rfl⟩
  refine ⟨t, flush1_5 t, ?_⟩
  rw [mem_blk1_5]
  have h := idx1 t
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 32 ≤ (i 1).val ∧ (i 1).val < win1_5.index t (1 : Fin 2) * 32 + 32; omega

/-- THE OUTPUT ARRAY after the second launch. -/
theorem arr1_5 (c : Dev nD) : (dat1 V c).arrAt 5 cfg1.N = O2 V c :=
  (dat1 V c).arrAt_eq_of_cover 5 _ (fun t _ => flushed1_5 V c t) tiles1_5

end Cert.KernelIdeal.Arrays

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«127053_j20426864459786_2_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.EdgeRead.lean ====
/-
  The host's gather and accumulating scatters over the edge list, read at an index as the sums of Spec.

  A gather of the rows of a 50000-row table at the normalised source words reads, at (e, f), the table at
  (srcRow e, f). An accumulating scatter of 800000 update rows into a 50000-row table of zeros at the destination
  words reads, at (v, f), zero plus the sum of the updates of the edges into v; when update e is the row edge e
  reads, that is `edgeSum`. The same scatter of ones into a vector of zeros is the degree.
-/
import proofs.«127053_j20426864459786_2_alg».proof.Proof.Spec
import proofs.«127053_j20426864459786_2_alg».proof.Proof.LibScatterSum

noncomputable section

open scoped BigOperators

namespace Cert.Sage

open Idealize.ShloMosaic Idealize.ShloMosaic.ValueIdx Idealize.ShloMosaic.RowGather Idealize.ShloMosaic.RowScatter

/-- The row gather at the normalised source words. -/
theorem gather_read {α : Type} {D : ℕ}
    (wfG : GatherDims.WF ⟨2, ![50000, D]⟩ ⟨2, ![800000, 1]⟩ ⟨2, ![800000, D]⟩ [1] [0] [] [0] [] 1 ![1, D])
    (t : (⟨2, ![50000, D]⟩ : Shape).Idx → α) (I : IVec ⟨2, ![800000, 1]⟩ 32) (src : Words 800000)
    (hI : ∀ e : Fin 800000, I (ix2 e (0 : Fin 1)) = srcWord (src (ix1 e))) (e : Fin 800000) (f : Fin D) :
    Host.gather (RowGather.rowDims 50000 800000 D wfG) t I (ix2 e f) = t (ix2 (srcRow src e) f) := by
  rw [rowGather_apply (by decide : 0 < 50000), hI]
  rfl

/-- The accumulating row scatter from zeros at the destination words, of the rows the edges read. -/
theorem edgeSum_read {D : ℕ}
    (wfS : ScatterDims.WF ⟨2, ![50000, D]⟩ ⟨2, ![800000, 1]⟩ ⟨2, ![800000, D]⟩ [1] [0] [0] 1)
    (z0 : FVec Ideal ⟨2, ![50000, D]⟩ .f32) (J : IVec ⟨2, ![800000, 1]⟩ 32) (upd : FVec Ideal ⟨2, ![800000, D]⟩ .f32)
    (t : Mat 50000 D) (src dst : Words 800000) (hz : ∀ i, z0 i = zeroW)
    (hJ : ∀ e : Fin 800000, J (ix2 e (0 : Fin 1)) = dst (ix1 e))
    (hupd : ∀ (e : Fin 800000) (f : Fin D), upd (ix2 e f) = t (ix2 (srcRow src e) f)) (v : Fin 50000) (f : Fin D) :
    Host.scatterAdd (RowScatter.rowDims 50000 800000 D wfS) z0 J upd (ix2 v f) = edgeSum src dst t v f := by
  show Ideal.hostScatterAdd (RowScatter.rowDims 50000 800000 D wfS) z0 J upd (ix2 v f) = _
  rw [rowScatterAdd_apply, hz]
  unfold edgeSum into
  simp only [hJ, hupd]

/-- The accumulating vector scatter of ones from zeros at the destination words: the degree. -/
theorem degree_read
    (wfS : ScatterDims.WF ⟨1, ![50000]⟩ ⟨2, ![800000, 1]⟩ ⟨1, ![800000]⟩ [] [0] [0] 1)
    (z0 : FVec Ideal ⟨1, ![50000]⟩ .f32) (J : IVec ⟨2, ![800000, 1]⟩ 32) (upd : FVec Ideal ⟨1, ![800000]⟩ .f32)
    (dst : Words 800000) (hz : ∀ i, z0 i = zeroW) (hJ : ∀ e : Fin 800000, J (ix2 e (0 : Fin 1)) = dst (ix1 e))
    (hupd : ∀ i, upd i = oneW) (v : Fin 50000) :
    Host.scatterAdd (RowScatter.vecDims 50000 800000 wfS) z0 J upd (ix1 v) = degree dst v := by
  show Ideal.hostScatterAdd (RowScatter.vecDims 50000 800000 wfS) z0 J upd (ix1 v) = _
  rw [vecScatterAdd_apply, hz]
  unfold degree into
  simp only [hJ, hupd]

end Cert.Sage

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.KernelHost.lean ====
/-
  The host operations around the two kernel launches, read from any contents of the buffers they start from.

  Before the first launch the host computes the degree of every node (a scatter of ones from zeros, then a reshape to
  a column), the summed neighbour feature rows (a gather at the normalised source words and a scatter from zeros), and
  relabels the weights and biases (changes of float format, which are the identity on the extended reals, and
  reshapes of a vector to one row). Between the launches it gathers and scatters the projected hidden rows in the
  same way. Each result is stated as a function of the contents of the buffers it is computed from, whatever those
  contents are; the buffers a stretch does not write keep theirs.
-/
import proofs.«127053_j20426864459786_2_alg».proof.Proof.Gen.KernelIdeal.Launch
import proofs.«127053_j20426864459786_2_alg».proof.Proof.EdgeRead
import proofs.«127053_j20426864459786_2_alg».proof.Proof.LibHostKeepdims
import proofs.«127053_j20426864459786_2_alg».proof.Proof.LibKeepdims
import Idealize.ShloMosaic.Lib.StableHlo.Run
import Idealize.ShloMosaic.Lib.Pipeline.Value

noncomputable section

open scoped BigOperators

namespace Cert.KernelIdeal.HostOps

open Cert.KernelIdeal Cert.KernelIdeal.Gen Cert.Sage
open Idealize.ShloMosaic Idealize.ShloMosaic.TcCoe Idealize.ShloMosaic.ValueIdx Idealize.ShloMosaic.StableHlo

/-! ## Splats and the edge words, read at an index -/

theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  (broadcastInDim_apply _ h (constant (F := Ideal) S_ .f32 w) i (fun a => a.elim0) (fun a => a.elim0)).trans rfl

theorem splatI_apply {t : Shape} (h : S_.BroadcastsInDim t (![] : Fin 0 → Fin t.rank)) (w : BitVec 32) (i : t.Idx) :
    broadcastInDim t ![] h (constantI S_ 32 w) i = w :=
  (broadcastInDim_apply _ h (constantI S_ 32 w) i (fun a => a.elim0) (fun a => a.elim0)).trans rfl

/-- The destination words as a column. -/
theorem dstCol (dst : IVec S800000 32) (e : Fin 800000) :
    broadcastInDim S800000x1 ![0] bcast_S800000_S800000x1_0 dst (ix2 e (0 : Fin 1)) = dst (ix1 e) :=
  Cert.LibHostKeepdims.bcast_a_a1_apply bcast_S800000_S800000x1_0 dst e 0

/-- The normalised source words as a column. -/
theorem srcCol (src : IVec S800000 32) (e : Fin 800000) :
    broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src) (ix2 e (0 : Fin 1))
      = srcWord (src (ix1 e)) := by
  rw [Cert.LibHostKeepdims.bcast_a_a1_apply, select_apply]
  show Scalar.select (IntOp.cmpi .slt (src (ix1 e)) (broadcastInDim S800000 ![] bcast_S_S800000 (constantI S_ 32 0#32) (ix1 e)))
    (IntOp.addi (src (ix1 e)) (broadcastInDim S800000 ![] bcast_S_S800000 (constantI S_ 32 50000#32) (ix1 e))) (src (ix1 e)) = _
  rw [splatI_apply, splatI_apply]
  rfl

variable (W : Valuation τ sig (Elt Ideal))

/-! ## Before the first launch -/

/-- The summed neighbour feature rows. -/
theorem v16_after : after hostOps0 W (Proc.devRef .tc main_v16)
    = ofFn (edgeSum (W (Proc.devRef .tc main_arg7)) (W (Proc.devRef .tc main_arg8)) (W (Proc.devRef .tc main_arg0))) := by
  after_results_simp
  funext i
  obtain ⟨v, f, rfl⟩ : ∃ (v : Fin 50000) (f : Fin 64), i = ix2 v f := ⟨i 0, i 1, eq_ix2 i⟩
  rw [ofFn_apply]
  refine edgeSum_read scatter_S50000x64_S800000x1_S800000x64_1_0_0_1.wf _ _ _ (W (Proc.devRef .tc main_arg0))
    (W (Proc.devRef .tc main_arg7)) (W (Proc.devRef .tc main_arg8)) (fun i => splat_apply _ _ i) (dstCol _)
    (fun e f => ?_) v f
  exact gather_read (α := Ideal .bf16) gather_S50000x64_S800000x1_S800000x64_1_0_n_n_0_1_164.wf
    (truncf (F := Ideal) (s := S50000x64) (φ := .f32) .bf16 (W (Proc.devRef .tc main_arg0)) bitsLt_bf16_f32) _
    (W (Proc.devRef .tc main_arg7)) (srcCol _) e f

/-- The degree column. -/
theorem v4_after : after hostOps0 W (Proc.devRef .tc main_v4)
    = (ofFn fun v _ => degree (W (Proc.devRef .tc main_arg8)) v : Mat 50000 1) := by
  after_results_simp
  funext i
  obtain ⟨v, u, rfl⟩ : ∃ (v : Fin 50000) (u : Fin 1), i = ix2 v u := ⟨i 0, i 1, eq_ix2 i⟩
  rw [ofFn_apply]
  refine (Cert.LibKeepdims.shapeCast_a_a1_apply _ _ v u).trans ?_
  exact degree_read scatter_S50000_S800000x1_S800000_n_0_0_1.wf _ _ _ (W (Proc.devRef .tc main_arg8))
    (fun i => splat_apply _ _ i) (dstCol _) (fun i => splat_apply _ _ i) v

/-- The weights, relabelled: a change of float format is the identity. -/
theorem v17_after : after hostOps0 W (Proc.devRef .tc main_v17) = (W (Proc.devRef .tc main_arg1) : Mat 64 64) := by
  after_results_simp; rfl
theorem v18_after : after hostOps0 W (Proc.devRef .tc main_v18) = (W (Proc.devRef .tc main_arg2) : Mat 64 64) := by
  after_results_simp; rfl
theorem v19_after : after hostOps0 W (Proc.devRef .tc main_v19) = (W (Proc.devRef .tc main_arg5) : Mat 64 32) := by
  after_results_simp; rfl
theorem v20_after : after hostOps0 W (Proc.devRef .tc main_v20) = (W (Proc.devRef .tc main_arg4) : Mat 64 32) := by
  after_results_simp; rfl

/-- A vector as one row. -/
theorem row_of_vec {b : ℕ} (x : (⟨1, ![b]⟩ : Shape).Idx → EReal) (h : (⟨1, ![b]⟩ : Shape).ShapeCasts ⟨2, ![1, b]⟩)
    (u : Fin 1) (j : Fin b) : shapeCast ⟨2, ![1, b]⟩ x h (ix2 u j) = x (ix1 j) := by
  refine shapeCast_apply x h (ix2 u j) (ix1 j) ?_
  rw [Shape.rowMajor_val_two, Shape.rowMajor_val_one]
  show j.val = u.val * b + j.val
  have hu : u.val = 0 := by have := u.isLt; omega
  rw [hu]; omega

/-- The biases, as rows. -/
theorem v21_after : after hostOps0 W (Proc.devRef .tc main_v21)
    = (ofFn fun _ j => W (Proc.devRef .tc main_arg3) (ix1 j) : Mat 1 64) := by
  after_results_simp
  funext i
  obtain ⟨u, j, rfl⟩ : ∃ (u : Fin 1) (j : Fin 64), i = ix2 u j := ⟨i 0, i 1, eq_ix2 i⟩
  rw [ofFn_apply]
  exact row_of_vec _ _ u j
theorem v22_after : after hostOps0 W (Proc.devRef .tc main_v22)
    = (ofFn fun _ j => W (Proc.devRef .tc main_arg6) (ix1 j) : Mat 1 32) := by
  after_results_simp
  funext i
  obtain ⟨u, j, rfl⟩ : ∃ (u : Fin 1) (j : Fin 32), i = ix2 u j := ⟨i 0, i 1, eq_ix2 i⟩
  rw [ofFn_apply]
  exact row_of_vec _ _ u j

/-- The arguments the stretch reads keep their contents. -/
theorem arg0_after : after hostOps0 W (Proc.devRef .tc main_arg0) = W (Proc.devRef .tc main_arg0) := by
  after_results_simp
theorem arg7_after : after hostOps0 W (Proc.devRef .tc main_arg7) = W (Proc.devRef .tc main_arg7) := by
  after_results_simp
theorem arg8_after : after hostOps0 W (Proc.devRef .tc main_arg8) = W (Proc.devRef .tc main_arg8) := by
  after_results_simp

/-! ## Between the launches -/

/-- The summed projected hidden rows. -/
theorem v34_after : after hostOps1 W (Proc.devRef .tc main_v34)
    = ofFn (edgeSum (W (Proc.devRef .tc main_arg7)) (W (Proc.devRef .tc main_arg8)) (W (Proc.devRef .tc main_v23_1))) := by
  after_results_simp
  funext i
  obtain ⟨v, f, rfl⟩ : ∃ (v : Fin 50000) (f : Fin 32), i = ix2 v f := ⟨i 0, i 1, eq_ix2 i⟩
  rw [ofFn_apply]
  refine edgeSum_read scatter_S50000x32_S800000x1_S800000x32_1_0_0_1.wf _ _ _ (W (Proc.devRef .tc main_v23_1))
    (W (Proc.devRef .tc main_arg7)) (W (Proc.devRef .tc main_arg8)) (fun i => splat_apply _ _ i) (dstCol _)
    (fun e f => ?_) v f
  exact gather_read (α := Ideal .bf16) gather_S50000x32_S800000x1_S800000x32_1_0_n_n_0_1_132.wf
    (W (Proc.devRef .tc main_v23_1)) _ (W (Proc.devRef .tc main_arg7)) (srcCol _) e f

/-- The buffers the second launch reads that this stretch does not write keep their contents. -/
theorem v23_0_after : after hostOps1 W (Proc.devRef .tc main_v23_0) = W (Proc.devRef .tc main_v23_0) := by
  after_results_simp
theorem v4_after1 : after hostOps1 W (Proc.devRef .tc main_v4) = W (Proc.devRef .tc main_v4) := by
  after_results_simp
theorem v20_after1 : after hostOps1 W (Proc.devRef .tc main_v20) = W (Proc.devRef .tc main_v20) := by
  after_results_simp
theorem v22_after1 : after hostOps1 W (Proc.devRef .tc main_v22) = W (Proc.devRef .tc main_v22) := by
  after_results_simp

end Cert.KernelIdeal.HostOps

end
-- ==== Proof.KernelValue.lean ====
/-
  The kernel program's result is the network of Spec with the neighbour rows projected first.

  The buffer contents are followed through the program: the launch memory; after the first host stretch the degree
  column, the summed feature rows and the relabelled weights; after the first launch the hidden array and its
  projection; after the second host stretch the summed projected rows; after the second launch the output array.
  At each boundary the arrays the next step reads are named as functions of the argument arrays.
-/
import proofs.«127053_j20426864459786_2_alg».proof.Proof.FrameResult
import proofs.«127053_j20426864459786_2_alg».proof.Proof.KernelArrays
import proofs.«127053_j20426864459786_2_alg».proof.Proof.KernelHost

set_option maxRecDepth 16384

noncomputable section

namespace Cert.KernelIdeal.KValue

open Cert.KernelIdeal Cert.KernelIdeal.Gen Cert.KernelIdeal.Arrays Cert.KernelIdeal.HostOps Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The argument arrays at launch. -/
abbrev a0 : Mat 50000 64 := m ((c : Thread nD τ).loc main_arg0)
abbrev a1 : Mat 64 64 := m ((c : Thread nD τ).loc main_arg1)
abbrev a2 : Mat 64 64 := m ((c : Thread nD τ).loc main_arg2)
abbrev a3 : Row 64 := m ((c : Thread nD τ).loc main_arg3)
abbrev a4 : Mat 64 32 := m ((c : Thread nD τ).loc main_arg4)
abbrev a5 : Mat 64 32 := m ((c : Thread nD τ).loc main_arg5)
abbrev a6 : Row 32 := m ((c : Thread nD τ).loc main_arg6)
abbrev a7 : Words 800000 := m ((c : Thread nD τ).loc main_arg7)
abbrev a8 : Words 800000 := m ((c : Thread nD τ).loc main_arg8)

/-- The degree as a column, and a bias as a row. -/
abbrev degCol : Mat 50000 1 := ofFn fun v _ => degree (a8 m c) v
abbrev hid : Mat 50000 64 := ofFn (hidden (a0 m c) (a1 m c) (a2 m c) (a3 m c) (a7 m c) (a8 m c))

/-! ## The first launch's entry contents -/

theorem V1_arg0 : V1 m ρ c main_arg0 = a0 m c := arg0_after (W0 m ρ c)
theorem V1_arg7 : W1 m ρ c (Proc.devRef .tc main_arg7) = a7 m c := arg7_after (W0 m ρ c)
theorem V1_arg8 : W1 m ρ c (Proc.devRef .tc main_arg8) = a8 m c := arg8_after (W0 m ρ c)
theorem V1_v16 : V1 m ρ c main_v16 = ofFn (edgeSum (a7 m c) (a8 m c) (a0 m c)) := v16_after (W0 m ρ c)
theorem V1_v4 : V1 m ρ c main_v4 = degCol m c := v4_after (W0 m ρ c)
theorem V1_v17 : V1 m ρ c main_v17 = a1 m c := v17_after (W0 m ρ c)
theorem V1_v18 : V1 m ρ c main_v18 = a2 m c := v18_after (W0 m ρ c)
theorem V1_v19 : V1 m ρ c main_v19 = a5 m c := v19_after (W0 m ρ c)
theorem V1_v20 : W1 m ρ c (Proc.devRef .tc main_v20) = a4 m c := v20_after (W0 m ρ c)
theorem V1_v21 : V1 m ρ c main_v21 = (ofFn fun _ j => a3 m c (ix1 j) : Mat 1 64) := v21_after (W0 m ρ c)
theorem V1_v22 : W1 m ρ c (Proc.devRef .tc main_v22) = (ofFn fun _ j => a6 m c (ix1 j) : Mat 1 32) := v22_after (W0 m ρ c)

/-- The hidden array the first launch leaves is Spec's hidden layer of the arguments. -/
theorem H1_eq : H1 (V1 m ρ) c = hid m c := by
  unfold H1
  rw [V1_arg0, V1_v16, V1_v4, V1_v17, V1_v18, V1_v21]
  funext i
  obtain ⟨v, j, rfl⟩ : ∃ (v : Fin 50000) (j : Fin 64), i = ix2 v j := ⟨i 0, i 1, eq_ix2 i⟩
  rw [hiddenOf_apply]
  show _ = hidden (a0 m c) (a1 m c) (a2 m c) (a3 m c) (a7 m c) (a8 m c) v j
  unfold Cert.Sage.hidden
  simp only [ofFn_apply]

/-! ## The first launch's exit contents -/

theorem W2_v23_0 : W2 m ρ c (Proc.devRef .tc main_v23_0) = hid m c :=
  (W2_arr m ρ c 7).trans ((arr0_7 (V1 m ρ) c).trans (H1_eq m ρ c))

theorem W2_v23_1 : W2 m ρ c (Proc.devRef .tc main_v23_1) = projOf (hid m c) (a5 m c) := by
  refine (W2_arr m ρ c 8).trans ((arr0_8 (V1 m ρ) c).trans ?_)
  unfold P1
  rw [H1_eq, V1_v19]

theorem W2_v4 : W2 m ρ c (Proc.devRef .tc main_v4) = degCol m c :=
  (W2_arr m ρ c 2).trans ((((dat0 (V1 m ρ) c).arrAt_in 2 rfl _).trans (A_eq0 (V1 m ρ) c 2)).trans (V1_v4 m ρ c))

theorem W2_arg7 : W2 m ρ c (Proc.devRef .tc main_arg7) = a7 m c :=
  (W2_of_ne m ρ c main_arg7 (by decide)).trans (V1_arg7 m ρ c)
theorem W2_arg8 : W2 m ρ c (Proc.devRef .tc main_arg8) = a8 m c :=
  (W2_of_ne m ρ c main_arg8 (by decide)).trans (V1_arg8 m ρ c)
theorem W2_v20 : W2 m ρ c (Proc.devRef .tc main_v20) = a4 m c :=
  (W2_of_ne m ρ c main_v20 (by decide)).trans (V1_v20 m ρ c)
theorem W2_v22 : W2 m ρ c (Proc.devRef .tc main_v22) = (ofFn fun _ j => a6 m c (ix1 j) : Mat 1 32) :=
  (W2_of_ne m ρ c main_v22 (by decide)).trans (V1_v22 m ρ c)

/-! ## The second launch's entry contents -/

theorem V3_v23_0 : V3 m ρ c main_v23_0 = hid m c := (v23_0_after (W2 m ρ c)).trans (W2_v23_0 m ρ c)
theorem V3_v4 : V3 m ρ c main_v4 = degCol m c := (v4_after1 (W2 m ρ c)).trans (W2_v4 m ρ c)
theorem V3_v20 : V3 m ρ c main_v20 = a4 m c := (v20_after1 (W2 m ρ c)).trans (W2_v20 m ρ c)
theorem V3_v22 : V3 m ρ c main_v22 = (ofFn fun _ j => a6 m c (ix1 j) : Mat 1 32) :=
  (v22_after1 (W2 m ρ c)).trans (W2_v22 m ρ c)
theorem V3_v34 : V3 m ρ c main_v34 = ofFn (edgeSum (a7 m c) (a8 m c) (projOf (hid m c) (a5 m c))) := by
  refine (v34_after (W2 m ρ c)).trans ?_
  rw [W2_arg7, W2_arg8, W2_v23_1]

/-- THE KERNEL PROGRAM'S RESULT is the network with the neighbour rows projected first. -/
theorem result_K : W4 m ρ c (Proc.devRef .tc main_v35)
    = ofFn (outK (a0 m c) (a1 m c) (a2 m c) (a3 m c) (a4 m c) (a5 m c) (a6 m c) (a7 m c) (a8 m c)) := by
  refine (W4_arr m ρ c 5).trans ((arr1_5 (V3 m ρ) c).trans ?_)
  unfold O2
  rw [V3_v23_0, V3_v34, V3_v4, V3_v20, V3_v22]
  funext i
  obtain ⟨v, q, rfl⟩ : ∃ (v : Fin 50000) (q : Fin 32), i = ix2 v q := ⟨i 0, i 1, eq_ix2 i⟩
  rw [outOf_apply]
  show _ = outK (a0 m c) (a1 m c) (a2 m c) (a3 m c) (a4 m c) (a5 m c) (a6 m c) (a7 m c) (a8 m c) v q
  unfold Cert.Sage.outK Cert.Sage.projOf
  simp only [ofFn_apply]

end Cert.KernelIdeal.KValue

end
-- ==== Proof.RefValue.lean ====
/-
  The reference's result is the network of Spec with the neighbour rows averaged first.

  The reference's run is read one operation at a time. Its gathers read the hidden rows (or the feature rows) at the
  normalised source words, its scatters sum them into the destination nodes, its two degree vectors are the same
  count; the remaining operations are matrix products, sums, a maximum with zero and broadcasts, each read at an index.
  Stage by stage: the degree, the denominator spread over a row, the summed feature rows, the hidden layer, the summed
  hidden rows, and the output.
-/
import proofs.«127053_j20426864459786_2_alg».proof.Proof.Gen.ReferenceIdeal.Read
import proofs.«127053_j20426864459786_2_alg».proof.Proof.EdgeRead

noncomputable section

open scoped BigOperators

namespace Cert.ReferenceIdeal.RefValue

open Cert.ReferenceIdeal Cert.ReferenceIdeal.Gen Cert.ReferenceIdeal.Read Cert.Sage
open Idealize.ShloMosaic Idealize.ShloMosaic.ValueIdx

variable (x0 : (⟨S50000x64, .f32⟩ : BufTy).Contents (Elt Ideal)) (x1 x2 : (⟨S64x64, .f32⟩ : BufTy).Contents (Elt Ideal))
  (x3 : (⟨S64, .f32⟩ : BufTy).Contents (Elt Ideal)) (x4 x5 : (⟨S64x32, .f32⟩ : BufTy).Contents (Elt Ideal))
  (x6 : (⟨S32, .f32⟩ : BufTy).Contents (Elt Ideal)) (x7 x8 : (⟨S800000, .i32⟩ : BufTy).Contents (Elt Ideal))

/-! ## The edge words -/

theorem src1 (e : Fin 800000) : val_main_v5 (F := Ideal) x7 (ix2 e (0 : Fin 1)) = srcWord (x7 (ix1 e)) := by
  rw [val_main_v5_apply]
  have h : idx_main_v5 (ix2 e (0 : Fin 1)) = ix1 e := funext fun a => Fin.ext (by match a with | ⟨0, _⟩ => rfl)
  rw [h]; rfl

theorem src2 (e : Fin 800000) : val_main_v31 (F := Ideal) x7 (ix2 e (0 : Fin 1)) = srcWord (x7 (ix1 e)) := by
  rw [val_main_v31_apply]
  have h : idx_main_v31 (ix2 e (0 : Fin 1)) = ix1 e := funext fun a => Fin.ext (by match a with | ⟨0, _⟩ => rfl)
  rw [h]; rfl

theorem dst8 (e : Fin 800000) : val_main_v8 (F := Ideal) x8 (ix2 e (0 : Fin 1)) = x8 (ix1 e) := by
  rw [val_main_v8_apply]
  exact congrArg x8 (funext fun a => Fin.ext (by match a with | ⟨0, _⟩ => rfl))

theorem dst12 (e : Fin 800000) : val_main_v12 (F := Ideal) x8 (ix2 e (0 : Fin 1)) = x8 (ix1 e) := by
  rw [val_main_v12_apply]
  exact congrArg x8 (funext fun a => Fin.ext (by match a with | ⟨0, _⟩ => rfl))

theorem dst34 (e : Fin 800000) : val_main_v34 (F := Ideal) x8 (ix2 e (0 : Fin 1)) = x8 (ix1 e) := by
  rw [val_main_v34_apply]
  exact congrArg x8 (funext fun a => Fin.ext (by match a with | ⟨0, _⟩ => rfl))

theorem dst38 (e : Fin 800000) : val_main_v38 (F := Ideal) x8 (ix2 e (0 : Fin 1)) = x8 (ix1 e) := by
  rw [val_main_v38_apply]
  exact congrArg x8 (funext fun a => Fin.ext (by match a with | ⟨0, _⟩ => rfl))

/-! ## The degree and the denominator, for each layer -/

theorem deg1 (v : Fin 50000) : val_main_v13 (F := Ideal) x8 (ix1 v) = degree x8 v :=
  degree_read scatter_S50000_S800000x1_S800000_n_0_0_1.wf _ _ _ x8
    (fun i => by rw [val_main_v11_apply, val_main_cst_2_apply]; rfl) (dst12 x8)
    (fun i => by rw [val_main_v10_apply, val_main_cst_1_apply]; rfl) v

theorem deg2 (v : Fin 50000) : val_main_v39 (F := Ideal) x8 (ix1 v) = degree x8 v :=
  degree_read scatter_S50000_S800000x1_S800000_n_0_0_1.wf _ _ _ x8
    (fun i => by rw [val_main_v37_apply, val_main_cst_8_apply]; rfl) (dst38 x8)
    (fun i => by rw [val_main_v36_apply, val_main_cst_7_apply]; rfl) v

theorem den1 (v : Fin 50000) (k : Fin 64) : val_main_v17 (F := Ideal) x8 (ix2 v k) = max (degree x8 v) oneW := by
  rw [val_main_v17_apply, val_main_v16_apply]
  have h : idx_main_v16 (idx_main_v17 (ix2 v k)) = ix1 v := funext fun a => Fin.ext (by match a with | ⟨0, _⟩ => rfl)
  rw [h, val_main_v15_apply, deg1, val_main_v14_apply, val_main_cst_3_apply]
  rfl

theorem den2 (v : Fin 50000) (k : Fin 64) : val_main_v43 (F := Ideal) x8 (ix2 v k) = max (degree x8 v) oneW := by
  rw [val_main_v43_apply, val_main_v42_apply]
  have h : idx_main_v42 (idx_main_v43 (ix2 v k)) = ix1 v := funext fun a => Fin.ext (by match a with | ⟨0, _⟩ => rfl)
  rw [h, val_main_v41_apply, deg2, val_main_v40_apply, val_main_cst_9_apply]
  rfl

/-! ## The first layer -/

theorem agg1 (v : Fin 50000) (k : Fin 64) : val_main_v9 (F := Ideal) x0 x7 x8 (ix2 v k) = edgeSum x7 x8 x0 v k :=
  edgeSum_read scatter_S50000x64_S800000x1_S800000x64_1_0_0_1.wf _ _ _ x0 x7 x8
    (fun i => by rw [val_main_v7_apply, val_main_cst_apply]; rfl) (dst8 x8)
    (fun e f => gather_read gather_S50000x64_S800000x1_S800000x64_1_0_n_n_0_1_164.wf x0 _ x7 (src1 x7) e f) v k

theorem bias1 (v : Fin 50000) (j : Fin 64) : val_main_v23 (F := Ideal) x3 (ix2 v j) = x3 (ix1 j) := by
  rw [val_main_v23_apply, val_main_v22_apply]
  exact congrArg x3 (funext fun a => Fin.ext (by match a with | ⟨0, _⟩ => rfl))

theorem zero1 (i : S50000x64.Idx) : val_main_call0_v0 (F := Ideal) i = zeroW := by
  rw [val_main_call0_v0_apply, val_main_call0_cst_apply]; rfl

/-- The reference's hidden layer is Spec's. -/
theorem hidden_ref : val_main_v25 (F := Ideal) x0 x1 x2 x3 x7 x8 = ofFn (hidden x0 x1 x2 x3 x7 x8) := by
  funext i
  obtain ⟨v, j, rfl⟩ : ∃ (v : Fin 50000) (j : Fin 64), i = ix2 v j := ⟨i 0, i 1, eq_ix2 i⟩
  rw [ofFn_apply, val_main_v25_apply, val_main_v24_apply, val_main_v21_apply, val_main_v19_apply, val_main_v20_apply,
    bias1, zero1]
  have hl19 : ∀ k : Fin 64, lidx_main_v19 (ix2 v j) k = ix2 v k := fun k =>
    funext fun a => Fin.ext (by match a with | ⟨0, _⟩ => rfl | ⟨1, _⟩ => rfl)
  have hr19 : ∀ k : Fin 64, ridx_main_v19 (ix2 v j) k = ix2 k j := fun k =>
    funext fun a => Fin.ext (by match a with | ⟨0, _⟩ => rfl | ⟨1, _⟩ => rfl)
  have hl20 : ∀ k : Fin 64, lidx_main_v20 (ix2 v j) k = ix2 v k := fun k =>
    funext fun a => Fin.ext (by match a with | ⟨0, _⟩ => rfl | ⟨1, _⟩ => rfl)
  have hr20 : ∀ k : Fin 64, ridx_main_v20 (ix2 v j) k = ix2 k j := fun k =>
    funext fun a => Fin.ext (by match a with | ⟨0, _⟩ => rfl | ⟨1, _⟩ => rfl)
  have e1 : (∑ k : Fin 64, x0 (lidx_main_v19 (ix2 v j) k) * x1 (ridx_main_v19 (ix2 v j) k))
      = ∑ k : Fin 64, x0 (ix2 v k) * x1 (ix2 k j) :=
    Finset.sum_congr rfl fun k _ => by rw [hl19 k, hr19 k]
  have e2 : (∑ k : Fin 64, val_main_v18 (F := Ideal) x0 x7 x8 (lidx_main_v20 (ix2 v j) k) * x2 (ridx_main_v20 (ix2 v j) k))
      = ∑ k : Fin 64, Ideal.div (edgeSum x7 x8 x0 v k) (max (degree x8 v) oneW) * x2 (ix2 k j) :=
    Finset.sum_congr rfl fun k _ => by rw [hl20 k, hr20 k, val_main_v18_apply, agg1, den1]; rfl
  rw [e1, e2]
  unfold Cert.Sage.hidden Cert.Sage.layer1Row
  rfl

/-! ## The second layer -/

theorem agg2 (v : Fin 50000) (k : Fin 64) :
    val_main_v35 (F := Ideal) x0 x1 x2 x3 x7 x8 (ix2 v k) = edgeSum x7 x8 (ofFn (hidden x0 x1 x2 x3 x7 x8)) v k :=
  edgeSum_read scatter_S50000x64_S800000x1_S800000x64_1_0_0_1.wf _ _ _ _ x7 x8
    (fun i => by rw [val_main_v33_apply, val_main_cst_6_apply]; rfl) (dst34 x8)
    (fun e f => by
      show Host.gather _ (val_main_v25 (F := Ideal) x0 x1 x2 x3 x7 x8) _ _ = _
      rw [hidden_ref]
      exact gather_read gather_S50000x64_S800000x1_S800000x64_1_0_n_n_0_1_164.wf _ _ x7 (src2 x7) e f) v k

theorem bias2 (v : Fin 50000) (c : Fin 32) : val_main_v49 (F := Ideal) x6 (ix2 v c) = x6 (ix1 c) := by
  rw [val_main_v49_apply, val_main_v48_apply]
  exact congrArg x6 (funext fun a => Fin.ext (by match a with | ⟨0, _⟩ => rfl))

/-- THE REFERENCE'S RESULT is the network with the neighbour rows averaged first. -/
theorem result_ref : val_main_v50 (F := Ideal) x0 x1 x2 x3 x4 x5 x6 x7 x8 = ofFn (outR x0 x1 x2 x3 x4 x5 x6 x7 x8) := by
  funext i
  obtain ⟨v, c, rfl⟩ : ∃ (v : Fin 50000) (c : Fin 32), i = ix2 v c := ⟨i 0, i 1, eq_ix2 i⟩
  rw [ofFn_apply, val_main_v50_apply, val_main_v47_apply, val_main_v45_apply, val_main_v46_apply, bias2, hidden_ref]
  have hl45 : ∀ k : Fin 64, lidx_main_v45 (ix2 v c) k = ix2 v k := fun k =>
    funext fun a => Fin.ext (by match a with | ⟨0, _⟩ => rfl | ⟨1, _⟩ => rfl)
  have hr45 : ∀ k : Fin 64, ridx_main_v45 (ix2 v c) k = ix2 k c := fun k =>
    funext fun a => Fin.ext (by match a with | ⟨0, _⟩ => rfl | ⟨1, _⟩ => rfl)
  have hl46 : ∀ k : Fin 64, lidx_main_v46 (ix2 v c) k = ix2 v k := fun k =>
    funext fun a => Fin.ext (by match a with | ⟨0, _⟩ => rfl | ⟨1, _⟩ => rfl)
  have hr46 : ∀ k : Fin 64, ridx_main_v46 (ix2 v c) k = ix2 k c := fun k =>
    funext fun a => Fin.ext (by match a with | ⟨0, _⟩ => rfl | ⟨1, _⟩ => rfl)
  have e1 : (∑ k : Fin 64, ofFn (hidden x0 x1 x2 x3 x7 x8) (lidx_main_v45 (ix2 v c) k) * x4 (ridx_main_v45 (ix2 v c) k))
      = ∑ k : Fin 64, hidden x0 x1 x2 x3 x7 x8 v k * x4 (ix2 k c) :=
    Finset.sum_congr rfl fun k _ => by rw [hl45 k, hr45 k, ofFn_apply]
  have e2 : (∑ k : Fin 64, val_main_v44 (F := Ideal) x0 x1 x2 x3 x7 x8 (lidx_main_v46 (ix2 v c) k) * x5 (ridx_main_v46 (ix2 v c) k))
      = ∑ k : Fin 64, Ideal.div (edgeSum x7 x8 (ofFn (hidden x0 x1 x2 x3 x7 x8)) v k) (max (degree x8 v) oneW) * x5 (ix2 k c) :=
    Finset.sum_congr rfl fun k _ => by rw [hl46 k, hr46 k, val_main_v44_apply, agg2, den2]; rfl
  rw [e1, e2]
  unfold Cert.Sage.outR Cert.Sage.project
  rfl

end Cert.ReferenceIdeal.RefValue

end
-- ==== Proof.Finite.lean ====
/-
  The precondition, read: every entry of every float argument is a real number.

  The precondition is one bit, the conjunction over the seven float arguments of "every entry's absolute value is
  below +∞". A conjunction of bits that is one has every conjunct one; a reduction by "and" over a whole array that is
  one met a one at every entry; and |x| < +∞ on the extended reals says x is neither infinity.
-/
import proofs.«127053_j20426864459786_2_alg».proof.Pre_finite_inputs
import proofs.«127053_j20426864459786_2_alg».proof.Proof.Gen.Pre_finite_inputs
import proofs.«127053_j20426864459786_2_alg».proof.Proof.LibRealMean
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx Cert.RealMean Cert.Pre_finite_inputs

instance : Subsingleton S_.Idx := ⟨fun a b => funext fun d => d.elim0⟩

/-- The f32 word of +∞ is the top of the extended reals. -/
theorem ofBits_inf : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One conjunct of the precondition: every entry of the array is real. -/
theorem all_real {s : Shape} (x : FVec Ideal s .f32) (hb : S_.BroadcastsInDim s (![] : Fin 0 → Fin s.rank))
    {axes : List (Fin s.rank)} (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : IsReal (x i) := by
  have hi := Host.reduce_andi_all _ _ hr hu ix0 h i
  refine real_of_abs_lt (x i) ?_
  have hb' : broadcastInDim s ![] hb (constant (F := Ideal) S_ .f32 0x7F800000#32) i = Ideal.ofBits .f32 0x7F800000#32 :=
    (broadcastInDim_apply _ hb (constant (F := Ideal) S_ .f32 0x7F800000#32) i (fun a => a.elim0) (fun a => a.elim0)).trans rfl
  rw [← hb']
  exact hi

/-- THE PRECONDITION READ: every float argument is real at every index. -/
theorem reals_of_pre (a0 : FVec Ideal S50000x64 .f32) (a1 a2 : FVec Ideal S64x64 .f32) (a3 : FVec Ideal S64 .f32)
    (a4 a5 : FVec Ideal S64x32 .f32) (a6 : FVec Ideal S32 .f32) (a7 a8 : IVec S800000 32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real a0 _ _ _ e0, all_real a1 _ _ _ e1, all_real a2 _ _ _ e2, all_real a3 _ _ _ e3, all_real a4 _ _ _ e4,
    all_real a5 _ _ _ e5, all_real a6 _ _ _ e6⟩

end Cert.Finite

end
-- ==== Proof.lean ====
/-
  The certificate of a two-layer mean-aggregation graph network: the Pallas program against its jnp reference.

  Both programs compute, for every node v, the hidden row
      h v = max (x v · Ws1 + (∑ of the feature rows of the edges into v / max (degree v) 1) · Wn1 + b1) 0
  and then the output row. The reference averages the hidden rows of the edges into v and projects the average by Wn2;
  the kernel program projects every hidden row by Wn2 inside its first launch, sums the projected rows over the edges
  on the host, and divides by the degree inside its second launch. On the extended reals the two agree when every
  float input is a real number (Spec, LibRealMean): the precondition says exactly that (Finite).

  The kernel program's value is read off its frame run: the frame theorem restated with the result buffer kept
  (FrameResult), the two launches' output arrays as whole-array functions (KernelBlocks, KernelArrays), the host
  stretches around them (KernelHost), composed in KernelValue. The reference's value is its generated run read one
  operation at a time (RefValue). The word-level program needs its frame only, and the ideal pass rewrote nothing.
-/
import proofs.«127053_j20426864459786_2_alg».proof.Defs
import proofs.«127053_j20426864459786_2_alg».proof.Proof.Gen.Kernel
import proofs.«127053_j20426864459786_2_alg».proof.Proof.Gen.Kernel.Frame
import proofs.«127053_j20426864459786_2_alg».proof.Proof.Gen.KernelIdeal
import proofs.«127053_j20426864459786_2_alg».proof.Proof.Gen.KernelIdeal.Frame
import proofs.«127053_j20426864459786_2_alg».proof.Proof.Gen.ReferenceIdeal
import proofs.«127053_j20426864459786_2_alg».proof.Proof.Gen.ReferenceIdeal.Run
import proofs.«127053_j20426864459786_2_alg».proof.Proof.Gen.Pre_finite_inputs
import proofs.«127053_j20426864459786_2_alg».proof.Proof.KernelValue
import proofs.«127053_j20426864459786_2_alg».proof.Proof.RefValue
import proofs.«127053_j20426864459786_2_alg».proof.Proof.Finite
import Idealize.ShloMosaic.Adequacy
import Idealize.ShloMosaic.Init

noncomputable section

namespace Cert.Proof

open Idealize.ShloMosaic Idealize.SL.Sem Cert.Sage

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the same output array: the kernel program's is the network with the neighbour rows
    projected first, the reference's the network with them averaged first, and on real inputs the two orders agree. -/
theorem algebraic : Cert.algebraic_KernelIdeal_ReferenceIdeal := by
  intro m ρ m' ρ' hpre hagree
  refine ⟨fun c => ofFn (outK (Cert.KernelIdeal.KValue.a0 m c) (Cert.KernelIdeal.KValue.a1 m c) (Cert.KernelIdeal.KValue.a2 m c)
      (Cert.KernelIdeal.KValue.a3 m c) (Cert.KernelIdeal.KValue.a4 m c) (Cert.KernelIdeal.KValue.a5 m c)
      (Cert.KernelIdeal.KValue.a6 m c) (Cert.KernelIdeal.KValue.a7 m c) (Cert.KernelIdeal.KValue.a8 m c)), ?_, ?_⟩
  · exact (θ_run Cert.KernelIdeal.defs _ _).mono
      (fun r h c => ⟨(h c).1.trans (Cert.KernelIdeal.KValue.result_K m ρ c), (h c).2⟩)
      (Cert.KernelIdeal.GenP.frame_result m ρ)
  · refine (θ_run Cert.ReferenceIdeal.defs _ _).mono (fun r h c => ⟨(h c).1.trans ?_, (h c).2⟩)
      (Cert.ReferenceIdeal.Value.run (F := Ideal) m' ρ')
    have e := hagree c
    rw [Cert.ReferenceIdeal.Read.val_main_v50_eq, e.1, e.2.1, e.2.2.1, e.2.2.2.1, e.2.2.2.2.1, e.2.2.2.2.2.1,
      e.2.2.2.2.2.2.1, e.2.2.2.2.2.2.2.1, e.2.2.2.2.2.2.2.2, Cert.ReferenceIdeal.RefValue.result_ref]
    obtain ⟨h0, h1, h2, h3, h4, h5, h6⟩ := Cert.Finite.reals_of_pre _ _ _ _ _ _ _ _ _ (hpre c)
    funext i
    exact (outK_eq_outR _ _ h0 h1 h2 h3 h5 (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
